-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S64x64 .f32) (main_arg3 : FVec F S64x64 .f32) (main_arg4 : FVec F S64 .f32) (main_arg5 : FVec F S64x64 .f32) (main_arg6 : FVec F S64x64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩
abbrev S10000x64 : Shape := ⟨2, ![10000, 64]⟩

abbrev nBuf : Space → Nat
  | .hbm => 59
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S_, .f32⟩
  | .hbm, ⟨35, _⟩ => ⟨S50000x64, .f32⟩
  | .hbm, ⟨36, _⟩ => ⟨S800000x1, .i32⟩
  | .hbm, ⟨37, _⟩ => ⟨S50000x64, .f32⟩
  | .hbm, ⟨38, _⟩ => ⟨S50000x64, .f32⟩
  | .hbm, ⟨39, _⟩ => ⟨S50000x64, .f32⟩
  | .hbm, ⟨40, _⟩ => ⟨S1x64, .f32⟩
  | .hbm, ⟨41, _⟩ => ⟨S50000x64, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x64, .f32⟩
  | .hbm, ⟨51, _⟩ => ⟨S_, .f32⟩
  | .hbm, ⟨52, _⟩ => ⟨S50000x64, .f32⟩
  | .hbm, ⟨53, _⟩ => ⟨S800000x1, .i32⟩
  | .hbm, ⟨54, _⟩ => ⟨S50000x64, .f32⟩
  | .hbm, ⟨55, _⟩ => ⟨S50000x64, .f32⟩
  | .hbm, ⟨56, _⟩ => ⟨S50000x64, .f32⟩
  | .hbm, ⟨57, _⟩ => ⟨S1x64, .f32⟩
  | .hbm, ⟨58, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S50000x64.size a
  hwx0_1 : ∀ i : grid0.Coords, EltTy.bits .f32 = 32 ∨ (Rect.block (s := S50000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S50000x64.size a
  hwx0_5 : ∀ i : grid0.Coords, EltTy.bits .f32 = 32 ∨ (Rect.block (s := S50000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S50000x64.size a
  hwx1_5 : ∀ i : grid1.Coords, EltTy.bits .f32 = 32 ∨ (Rect.block (s := S50000x64) S10000x64.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v24) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x64, .f32⟩
  | .hbm, ⟨36, _⟩ => ⟨S50000x64, .f32⟩
  | .hbm, ⟨37, _⟩ => ⟨S50000x64, .f32⟩
  | .hbm, ⟨38, _⟩ => ⟨S50000x64, .f32⟩
  | .hbm, ⟨39, _⟩ => ⟨S50000x64, .f32⟩
  | .hbm, ⟨40, _⟩ => ⟨S1x64, .f32⟩
  | .hbm, ⟨41, _⟩ => ⟨S50000x64, .f32⟩
  | .hbm, ⟨42, _⟩ => ⟨S50000x64, .f32⟩
  | .hbm, ⟨43, _⟩ => ⟨S_, .f32⟩
  | .hbm, ⟨44, _⟩ => ⟨S50000x64, .f32⟩
  | .hbm, ⟨45, _⟩ => ⟨S50000x64, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x64, .f32⟩
  | .hbm, ⟨55, _⟩ => ⟨S_, .f32⟩
  | .hbm, ⟨56, _⟩ => ⟨S50000x64, .f32⟩
  | .hbm, ⟨57, _⟩ => ⟨S800000x1, .i32⟩
  | .hbm, ⟨58, _⟩ => ⟨S50000x64, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x64, .f32⟩
  | .hbm, ⟨70, _⟩ => ⟨S50000x64, .f32⟩
  | .hbm, ⟨71, _⟩ => ⟨S50000x64, .f32⟩
  | .hbm, ⟨72, _⟩ => ⟨S50000x64, .f32⟩
  | .hbm, ⟨73, _⟩ => ⟨S50000x64, .f32⟩
  | .hbm, ⟨74, _⟩ => ⟨S1x64, .f32⟩
  | .hbm, ⟨75, _⟩ => ⟨S50000x64, .f32⟩
  | .hbm, ⟨76, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.ValueRun.lean ====
/-
  The kernel program's run with its result NAMED.

  The program is four segments — host operations, the first layer's region, host operations, the second layer's
  region — and the buffer contents at each boundary are a fold from the launch memory: `W1` after the first stretch,
  `W2` after the first region (its arrays at what the write-backs leave, every other buffer as entered), `W3` after
  the second stretch, `W4` after the second region. Every weakly fair execution terminates without a fault in a state
  whose unscoped buffers hold `W4`; read at the result buffer that is the statement below, and read at an argument
  buffer the fold walks back to the launch memory (the generated frame's `W4_main_argK`).
-/
import proofs.«177572_j377957122578_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the
    last boundary's contents and the argument arrays as launched. -/
theorem run : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.ValueRun

end
-- ==== Proof.Spec.lean ====
/-
  The mathematics both programs compute, stated once, on arrays of extended reals.

  A node has 64 features; there are 50000 nodes. One layer takes, for every node `p`, an aggregated feature row
  `A p` and the node's own row `X p`, and returns for every output feature `q`

      (sum over d of A p d * Wl d q) + (sum over d of X p d * Wr d q) + β q,

  the first layer followed by `max · 0`. The network is two such layers; the aggregated rows of the second layer
  are the aggregation of the first layer's OUTPUT. The aggregation itself (a mean over each node's incoming edges)
  enters here only as a function `aggr` from feature arrays to feature arrays: the layers never look inside it.
-/
import Idealize.ShloMosaic.PureOps.Ideal
import Idealize.ShloMosaic.Lib.ValueIdx

noncomputable section

open scoped BigOperators

namespace Cert.Sage

open Idealize.ShloMosaic Idealize.ShloMosaic.ValueIdx

/-- The shape of a feature array: one row of 64 features per node. -/
abbrev Feat : Shape := ⟨2, ![50000, 64]⟩
/-- The shape of a weight matrix. -/
abbrev Wt : Shape := ⟨2, ![64, 64]⟩

/-- Entry `(p, q)` of one layer: row `p` of the aggregated features against column `q` of the first weight, plus row
    `p` of the node's own features against column `q` of the second weight, plus entry `q` of the bias. -/
def linAt (A X : Feat.Idx → EReal) (Wl Wr : Wt.Idx → EReal) (β : Fin 64 → EReal) (p : Fin 50000) (q : Fin 64) : EReal :=
  (∑ d : Fin 64, A (ix2 p d) * Wl (ix2 d q)) + (∑ d : Fin 64, X (ix2 p d) * Wr (ix2 d q)) + β q

/-- One layer as an array. -/
def lin (A X : Feat.Idx → EReal) (Wl Wr : Wt.Idx → EReal) (β : Fin 64 → EReal) : Feat.Idx → EReal :=
  fun i => linAt A X Wl Wr β (i 0) (i 1)

/-- One layer followed by the positive part (the larger of the entry and the float zero). -/
def linRelu (A X : Feat.Idx → EReal) (Wl Wr : Wt.Idx → EReal) (β : Fin 64 → EReal) : Feat.Idx → EReal :=
  fun i => max (linAt A X Wl Wr β (i 0) (i 1)) (Ideal.ofBits .f32 0x00000000#32)

theorem lin_apply (A X : Feat.Idx → EReal) (Wl Wr : Wt.Idx → EReal) (β : Fin 64 → EReal) (p : Fin 50000) (q : Fin 64) :
    lin A X Wl Wr β (ix2 p q) = linAt A X Wl Wr β p q := rfl

theorem linRelu_apply (A X : Feat.Idx → EReal) (Wl Wr : Wt.Idx → EReal) (β : Fin 64 → EReal) (p : Fin 50000) (q : Fin 64) :
    linRelu A X Wl Wr β (ix2 p q) = max (linAt A X Wl Wr β p q) (Ideal.ofBits .f32 0x00000000#32) := rfl

/-- The two-layer network over an aggregation `aggr`: the hidden features are the first layer with its positive
    part, of the aggregated inputs and the inputs; the result is the second layer of the aggregated hidden features
    and the hidden features. -/
def net (aggr : (Feat.Idx → EReal) → (Feat.Idx → EReal)) (x : Feat.Idx → EReal)
    (W1l W1r : Wt.Idx → EReal) (β1 : Fin 64 → EReal) (W2l W2r : Wt.Idx → EReal) (β2 : Fin 64 → EReal) : Feat.Idx → EReal :=
  lin (aggr (linRelu (aggr x) x W1l W1r β1)) (linRelu (aggr x) x W1l W1r β1) W2l W2r β2

end Cert.Sage

end
-- ==== Proof.LibMatmulRead.lean ====
/-
  A matrix product and a transpose read entry by entry.

  Three facts about rank-2 arrays of extended reals, each stated at an index given by its two coordinates:
    • the transpose of an `[a, b]` array reads, at `(q, p)`, the operand at `(p, q)`;
    • a matrix product that contracts the second axis of an `[a, k]` array with the first axis of a `[k, b]`
      array, started from the zero accumulator, reads at `(p, q)` the sum over `d` of the left operand at
      `(p, d)` times the right operand at `(d, q)`;
    • so the product of an `[a, k]` array with the TRANSPOSE of a `[b, k]` array reads at `(p, q)` the inner
      product of row `p` of the first with row `q` of the second.
  The record of dimension numbers is any one whose six axis lists are the plain product's; at a literal record each
  of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- The transpose of an `[a, b]` array reads, at `(q, p)`, the operand at `(p, q)`. -/
theorem transpose_ab_ba_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- A product contracting the second axis of the left operand with the first axis of the right one, from the zero
    accumulator, read at `(p, q)`: the sum over the contracted coordinate. -/
theorem matmul_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    matmul D prec x w (constant (F := Ideal) ⟨2, ![a, b]⟩ .f32 0x00000000#32) (ix2 p q)
      = ∑ d : Fin k, x (ix2 p d) * w (ix2 d q) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- The product of an `[a, k]` array with the transpose of a `[b, k]` array, from the zero accumulator, read at
    `(p, q)`: the inner product of row `p` of the first with row `q` of the second. -/
theorem matmul_transpose_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![b, k]⟩ φ₂)
    (h : (⟨2, ![b, k]⟩ : Shape).Transposes [1, 0] ⟨2, ![k, b]⟩) (p : Fin a) (q : Fin b) :
    matmul D prec x (transpose ⟨2, ![k, b]⟩ [1, 0] w h) (constant (F := Ideal) ⟨2, ![a, b]⟩ .f32 0x00000000#32) (ix2 p q)
      = ∑ d : Fin k, x (ix2 p d) * w (ix2 q d) :=
  (matmul_ix2_apply D hlc hrc hln hrn hlb hrb prec x _ p q).trans
    (Finset.sum_congr rfl fun d _ => congrArg (x (ix2 p d) * ·) (transpose_ab_ba_apply w h d q))

end Idealize.ShloMosaic.ValueIdx
-- ==== Proof.RegionValue0.lean ====
/-
  What the first of the two regions leaves in its output array, as one function of the arrays it finds on entry.

  The region walks the 50000 rows in five blocks of 10000. At each block it reads the block's rows of the aggregated
  features and of the node features, both 64 x 64 weights and the bias row, and stores, for row `p` and column `q`,

      max ((sum over d of A p d * Wl d q) + (sum over d of X p d * Wr d q) + β q) 0.

  Three steps:
    • the stored block at an index `(p, q)` is that expression of the blocks read (`pay0_apply`);
    • row `p` of the block of point `t` is row `10000 t + p` of each feature array, the weights and the bias are read
      whole, so what point `t` writes back is its block of the layer function of the entry arrays (`flushed0_eq`);
    • every row lies in the block of the point `row / 10000`, so the five blocks cover the array and it ends holding
      the layer function everywhere (`region0_value`).
-/
import proofs.«177572_j377957122578_1_alg».proof.Proof.Gen.KernelIdeal.Frame
import proofs.«177572_j377957122578_1_alg».proof.Proof.Spec
import proofs.«177572_j377957122578_1_alg».proof.Proof.LibMatmulRead
import Idealize.ShloMosaic.Lib.Pipeline.Value
import Idealize.ShloMosaic.Lib.ValueIdx
import Idealize.ShloMosaic.PureOps.Ideal.Laws

noncomputable section

namespace Cert.KernelIdeal.RegionValue

open Idealize.ShloMosaic Idealize.ShloMosaic.ValueIdx Idealize.ShloMosaic.TcCoe
open Idealize.ShloMosaic.Pipeline (Dat Cfg Window)
open Cert.KernelIdeal Cert.KernelIdeal.Gen
open scoped BigOperators

/-- Entry `(p, q)` of what the first region's body stores: both products summed over the contracted coordinate,
    the bias entry of column `q`, and the larger of that and the float zero. -/
theorem pay0_apply (x0 x1 : Vec Ideal S10000x64 .f32) (x2 x3 : Vec Ideal S64x64 .f32) (x4 : Vec Ideal S1x64 .f32)
    (p : Fin 10000) (q : Fin 64) :
    k0_pay1 x0 x1 x2 x3 x4 (ix2 p q)
      = max ((∑ d : Fin 64, x0 (ix2 p d) * x2 (ix2 d q)) + (∑ d : Fin 64, x1 (ix2 p d) * x3 (ix2 d q)) + x4 (ix2 0 q))
          (Ideal.ofBits .f32 0x00000000#32) := by
  unfold k0_pay1
  rw [maximumf_apply, addf_apply, addf_apply, broadcast_apply]
  refine congrArg₂ max (congrArg₂ (· + ·) (congrArg₂ (· + ·) ?_ ?_) ?_) rfl
  · rw [shapeCast_self]
    exact matmul_ix2_apply _ rfl rfl rfl rfl rfl rfl none _ _ p q
  · exact matmul_ix2_apply _ rfl rfl rfl rfl rfl rfl none _ _ p q
  · rw [shapeCast_self]
    exact broadcastTo_apply x4 _ (ix2 p q) (ix2 0 q) fun a => by
      match a with
      | ⟨0, _⟩ => rfl
      | ⟨1, _⟩ => rfl

/-- Both offsets of a whole-buffer access are zero. -/
private theorem offsets_zero : (![0, 0] : Fin 2 → Nat) = fun _ => 0 := funext fun a => by fin_cases a <;> rfl

/-- The block indices of the first region's six windows at grid point `t`: the two feature inputs and the output
    sit at block row `t`, column block `0`; the two weights and the bias row are the whole arrays, block `(0, 0)`. -/
theorem block_indices0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the block of grid point `t`, as a row of the 50000-row array. -/
def row0 (t : Fin cfg0.N) (p : Fin 10000) : Fin 50000 :=
  ⟨t.val * 10000 + p.val, by have ht : t.val < 5 := t.isLt; have hp := p.isLt; omega⟩

variable (V : (c : Dev nD) → (b : Ref sig .tc) → Buf (Elt Ideal) ((c : Thread nD τ).loc b))

/-- Entry `(p, d)` of the aggregated-feature block of point `t` is entry `(row, d)` of the array. -/
theorem iblk0_0_apply (c : Dev nD) (t : Fin cfg0.N) (p : Fin 10000) (d : Fin 64) :
    iblk0 (F := Ideal) V c 0 t (ix2 p d) = (V c main_v24 : S50000x64.Idx → EReal) (ix2 (row0 t p) d) := by
  obtain ⟨e00, e01, -⟩ := block_indices0 t
  show V c main_v24 (((cfg0.win 0).blk t).view.emb (ix2 p d)) = V c main_v24 (ix2 (row0 t p) d)
  refine congrArg (V c main_v24) (funext fun a => Fin.ext ?_)
  match a with
  | ⟨0, _⟩ => show win0_0.index t (0 : Fin 2) * 10000 + 1 * p.val = t.val * 10000 + p.val; omega
  | ⟨1, _⟩ => show win0_0.index t (1 : Fin 2) * 64 + 1 * d.val = d.val; omega

/-- Entry `(p, d)` of the node-feature block of point `t` is entry `(row, d)` of the array. -/
theorem iblk0_1_apply (c : Dev nD) (t : Fin cfg0.N) (p : Fin 10000) (d : Fin 64) :
    iblk0 (F := Ideal) V c 1 t (ix2 p d) = (V c main_arg0 : S50000x64.Idx → EReal) (ix2 (row0 t p) d) := by
  obtain ⟨-, -, e10, e11, -⟩ := block_indices0 t
  show V c main_arg0 (((cfg0.win 1).blk t).view.emb (ix2 p d)) = V c main_arg0 (ix2 (row0 t p) d)
  refine congrArg (V c main_arg0) (funext fun a => Fin.ext ?_)
  match a with
  | ⟨0, _⟩ => show win0_1.index t (0 : Fin 2) * 10000 + 1 * p.val = t.val * 10000 + p.val; omega
  | ⟨1, _⟩ => show win0_1.index t (1 : Fin 2) * 64 + 1 * d.val = d.val; omega

/-- The first weight's block at any point is the whole matrix. -/
theorem iblk0_2_apply (c : Dev nD) (t : Fin cfg0.N) (d q : Fin 64) :
    iblk0 (F := Ideal) V c 2 t (ix2 d q) = (V c main_arg2 : S64x64.Idx → EReal) (ix2 d q) := by
  obtain ⟨-, -, -, -, e20, e21, -⟩ := block_indices0 t
  show V c main_arg2 (((cfg0.win 2).blk t).view.emb (ix2 d q)) = V c main_arg2 (ix2 d q)
  refine congrArg (V c main_arg2) (funext fun a => Fin.ext ?_)
  match a with
  | ⟨0, _⟩ => show win0_2.index t (0 : Fin 2) * 64 + 1 * d.val = d.val; omega
  | ⟨1, _⟩ => show win0_2.index t (1 : Fin 2) * 64 + 1 * q.val = q.val; omega

/-- The second weight's block at any point is the whole matrix. -/
theorem iblk0_3_apply (c : Dev nD) (t : Fin cfg0.N) (d q : Fin 64) :
    iblk0 (F := Ideal) V c 3 t (ix2 d q) = (V c main_arg3 : S64x64.Idx → EReal) (ix2 d q) := by
  obtain ⟨-, -, -, -, -, -, e30, e31, -⟩ := block_indices0 t
  show V c main_arg3 (((cfg0.win 3).blk t).view.emb (ix2 d q)) = V c main_arg3 (ix2 d q)
  refine congrArg (V c main_arg3) (funext fun a => Fin.ext ?_)
  match a with
  | ⟨0, _⟩ => show win0_3.index t (0 : Fin 2) * 64 + 1 * d.val = d.val; omega
  | ⟨1, _⟩ => show win0_3.index t (1 : Fin 2) * 64 + 1 * q.val = q.val; omega

/-- The bias row's block at any point is the whole row. -/
theorem iblk0_4_apply (c : Dev nD) (t : Fin cfg0.N) (q : Fin 64) :
    iblk0 (F := Ideal) V c 4 t (ix2 0 q) = (V c main_v25 : S1x64.Idx → EReal) (ix2 0 q) := by
  obtain ⟨-, -, -, -, -, -, -, -, e40, e41, -⟩ := block_indices0 t
  show V c main_v25 (((cfg0.win 4).blk t).view.emb (ix2 0 q)) = V c main_v25 (ix2 0 q)
  refine congrArg (V c main_v25) (funext fun a => Fin.ext ?_)
  match a with
  | ⟨0, _⟩ => show win0_4.index t (0 : Fin 2) * 1 + 1 * 0 = 0; omega
  | ⟨1, _⟩ => show win0_4.index t (1 : Fin 2) * 64 + 1 * q.val = q.val; omega

/-- Entry `(p, q)` of the output block of point `t` sits at `(row, q)` of the output array. -/
theorem blk0_5_emb (t : Fin cfg0.N) (p : Fin 10000) (q : Fin 64) :
    ((cfg0.win 5).blk t).view.emb (ix2 p q) = (ix2 (row0 t p) q : S50000x64.Idx) := by
  obtain ⟨-, -, -, -, -, -, -, -, -, -, e50, e51⟩ := block_indices0 t
  refine funext fun a => Fin.ext ?_
  match a with
  | ⟨0, _⟩ => show win0_5.index t (0 : Fin 2) * 10000 + 1 * p.val = t.val * 10000 + p.val; omega
  | ⟨1, _⟩ => show win0_5.index t (1 : Fin 2) * 64 + 1 * q.val = q.val; omega

/-- What grid point `t` writes back is its block of the first layer of the arrays the region finds on entry. -/
theorem flushed0_eq (c : Dev nD) (t : Fin cfg0.N) :
    (dat0 (F := Ideal) V c).flushed 5 t = ((cfg0.win 5).blk t).view.read (Elt Ideal)
      (Cert.Sage.linRelu (V c main_v24) (V c main_arg0) (V c main_arg2) (V c main_arg3)
        (fun q => (V c main_v25 : S1x64.Idx → EReal) (ix2 0 q))) := by
  show (cfg0.win 5).cut (grid0.coords t) ((dat0 V c).after 5 t) = _
  rw [after0_5]
  unfold out0_5
  rw [View.canon_unit_zero offsets_zero]
  simp only [View.ld_unit_zero (S := S10000x64) offsets_zero, View.ld_unit_zero (S := S64x64) offsets_zero,
    View.ld_unit_zero (S := S1x64) offsets_zero]
  funext j
  obtain ⟨p, q, rfl⟩ : ∃ (p : Fin 10000) (q : Fin 64), j = ix2 p q := ⟨j 0, j 1, eq_ix2 j⟩
  show k0_pay1 (iblk0 V c 0 t) (iblk0 V c 1 t) (iblk0 V c 2 t) (iblk0 V c 3 t) (iblk0 V c 4 t) (ix2 p q)
      = Cert.Sage.linRelu (V c main_v24) (V c main_arg0) (V c main_arg2) (V c main_arg3)
          (fun q => (V c main_v25 : S1x64.Idx → EReal) (ix2 0 q)) (((cfg0.win 5).blk t).view.emb (ix2 p q))
  rw [blk0_5_emb, Cert.Sage.linRelu_apply, pay0_apply]
  unfold Cert.Sage.linAt
  simp only [iblk0_0_apply, iblk0_1_apply, iblk0_2_apply, iblk0_3_apply, iblk0_4_apply]

/-- An index of the output array lies in the block of point `t` iff each coordinate lies in the block's range. -/
theorem mem_blk0_5 (t : Fin cfg0.N) (i : S50000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v26).slice (win0_5.rect t)).set ↔ _
  rw [View.set_slice_whole, Rect.mem_set_unit]
  exact Iff.rfl

/-- Every index of the output array lies in the block of the point its row divided by 10000 names. -/
theorem cover0_5_rows (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  refine ⟨⟨(i 0).val / 10000, by show (i 0).val / 10000 < 5; omega⟩, flush0_5 _, ?_⟩
  rw [mem_blk0_5]
  obtain ⟨-, -, -, -, -, -, -, -, -, -, e50, e51⟩ := block_indices0 ⟨(i 0).val / 10000, by show (i 0).val / 10000 < 5; omega⟩
  have e50' : win0_5.index ⟨(i 0).val / 10000, by show (i 0).val / 10000 < 5; omega⟩ (0 : Fin 2) = (i 0).val / 10000 := e50
  intro a
  match a with
  | ⟨0, _⟩ =>
    show win0_5.index _ (0 : Fin 2) * 10000 ≤ (i 0).val ∧ (i 0).val < win0_5.index _ (0 : Fin 2) * 10000 + 10000
    omega
  | ⟨1, _⟩ =>
    show win0_5.index _ (1 : Fin 2) * 64 ≤ (i 1).val ∧ (i 1).val < win0_5.index _ (1 : Fin 2) * 64 + 64
    omega

/-- THE FIRST REGION'S OUTPUT ARRAY after its five points: the first layer, with its positive part, of the arrays the
    region finds on entry. -/
theorem region0_value (c : Dev nD) :
    (Cert.KernelIdeal.Gen.dat0 (F := Ideal) V c).arrAt 5 cfg0.N
      = Cert.Sage.linRelu (V c main_v24) (V c main_arg0) (V c main_arg2) (V c main_arg3) (fun q => V c main_v25 (ix2 0 q)) :=
  (dat0 (F := Ideal) V c).arrAt_eq_of_cover 5 _ (fun t _ => flushed0_eq V c t) cover0_5_rows

end Cert.KernelIdeal.RegionValue

end
-- ==== Proof.RegionValue1.lean ====
/-
  What the second of the two regions leaves in its output array, as one function of the arrays it finds on entry.

  The region walks the 50000 rows in five blocks of 10000. At each block it reads the block's rows of the aggregated
  hidden features and of the hidden features, both 64 x 64 weights and the bias row, and stores, for row `p` and
  column `q`,

      (sum over d of A p d * Wl d q) + (sum over d of X p d * Wr d q) + β q.

  Three steps:
    • the stored block at an index `(p, q)` is that expression of the blocks read (`pay1_apply`);
    • row `p` of the block of point `t` is row `10000 t + p` of each feature array, the weights and the bias are read
      whole, so what point `t` writes back is its block of the layer function of the entry arrays (`flushed1_eq`);
    • every row lies in the block of the point `row / 10000`, so the five blocks cover the array and it ends holding
      the layer function everywhere (`region1_value`).
-/
import proofs.«177572_j377957122578_1_alg».proof.Proof.Gen.KernelIdeal.Frame
import proofs.«177572_j377957122578_1_alg».proof.Proof.Spec
import proofs.«177572_j377957122578_1_alg».proof.Proof.LibMatmulRead
import Idealize.ShloMosaic.Lib.Pipeline.Value
import Idealize.ShloMosaic.Lib.ValueIdx
import Idealize.ShloMosaic.PureOps.Ideal.Laws

noncomputable section

namespace Cert.KernelIdeal.RegionValue

open Idealize.ShloMosaic Idealize.ShloMosaic.ValueIdx Idealize.ShloMosaic.TcCoe
open Idealize.ShloMosaic.Pipeline (Dat Cfg Window)
open Cert.KernelIdeal Cert.KernelIdeal.Gen
open scoped BigOperators

/-- Entry `(p, q)` of what the second region's body stores: both products summed over the contracted coordinate and
    the bias entry of column `q`. -/
theorem pay1_apply (x0 x1 : Vec Ideal S10000x64 .f32) (x2 x3 : Vec Ideal S64x64 .f32) (x4 : Vec Ideal S1x64 .f32)
    (p : Fin 10000) (q : Fin 64) :
    k1_pay1 x0 x1 x2 x3 x4 (ix2 p q)
      = (∑ d : Fin 64, x0 (ix2 p d) * x2 (ix2 d q)) + (∑ d : Fin 64, x1 (ix2 p d) * x3 (ix2 d q)) + x4 (ix2 0 q) := by
  unfold k1_pay1
  rw [addf_apply, addf_apply]
  refine congrArg₂ (· + ·) (congrArg₂ (· + ·) ?_ ?_) ?_
  · rw [shapeCast_self]
    exact matmul_ix2_apply _ rfl rfl rfl rfl rfl rfl none _ _ p q
  · rw [shapeCast_self]
    exact matmul_ix2_apply _ rfl rfl rfl rfl rfl rfl none _ _ p q
  · rw [shapeCast_self]
    exact broadcastTo_apply x4 _ (ix2 p q) (ix2 0 q) fun a => by
      match a with
      | ⟨0, _⟩ => rfl
      | ⟨1, _⟩ => rfl

/-- Both offsets of a whole-buffer access are zero. -/
private theorem offsets_zero : (![0, 0] : Fin 2 → Nat) = fun _ => 0 := funext fun a => by fin_cases a <;> rfl

/-- The block indices of the second region's six windows at grid point `t`: the two feature inputs and the output
    sit at block row `t`, column block `0`; the two weights and the bias row are the whole arrays, block `(0, 0)`. -/
theorem block_indices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the block of grid point `t`, as a row of the 50000-row array. -/
def row1 (t : Fin cfg1.N) (p : Fin 10000) : Fin 50000 :=
  ⟨t.val * 10000 + p.val, by have ht : t.val < 5 := t.isLt; have hp := p.isLt; omega⟩

variable (V : (c : Dev nD) → (b : Ref sig .tc) → Buf (Elt Ideal) ((c : Thread nD τ).loc b))

/-- Entry `(p, d)` of the aggregated-feature block of point `t` is entry `(row, d)` of the array. -/
theorem iblk1_0_apply (c : Dev nD) (t : Fin cfg1.N) (p : Fin 10000) (d : Fin 64) :
    iblk1 (F := Ideal) V c 0 t (ix2 p d) = (V c main_v38 : S50000x64.Idx → EReal) (ix2 (row1 t p) d) := by
  obtain ⟨e00, e01, -⟩ := block_indices1 t
  show V c main_v38 (((cfg1.win 0).blk t).view.emb (ix2 p d)) = V c main_v38 (ix2 (row1 t p) d)
  refine congrArg (V c main_v38) (funext fun a => Fin.ext ?_)
  match a with
  | ⟨0, _⟩ => show win1_0.index t (0 : Fin 2) * 10000 + 1 * p.val = t.val * 10000 + p.val; omega
  | ⟨1, _⟩ => show win1_0.index t (1 : Fin 2) * 64 + 1 * d.val = d.val; omega

/-- Entry `(p, d)` of the hidden-feature block of point `t` is entry `(row, d)` of the array. -/
theorem iblk1_1_apply (c : Dev nD) (t : Fin cfg1.N) (p : Fin 10000) (d : Fin 64) :
    iblk1 (F := Ideal) V c 1 t (ix2 p d) = (V c main_v26 : S50000x64.Idx → EReal) (ix2 (row1 t p) d) := by
  obtain ⟨-, -, e10, e11, -⟩ := block_indices1 t
  show V c main_v26 (((cfg1.win 1).blk t).view.emb (ix2 p d)) = V c main_v26 (ix2 (row1 t p) d)
  refine congrArg (V c main_v26) (funext fun a => Fin.ext ?_)
  match a with
  | ⟨0, _⟩ => show win1_1.index t (0 : Fin 2) * 10000 + 1 * p.val = t.val * 10000 + p.val; omega
  | ⟨1, _⟩ => show win1_1.index t (1 : Fin 2) * 64 + 1 * d.val = d.val; omega

/-- The first weight's block at any point is the whole matrix. -/
theorem iblk1_2_apply (c : Dev nD) (t : Fin cfg1.N) (d q : Fin 64) :
    iblk1 (F := Ideal) V c 2 t (ix2 d q) = (V c main_arg5 : S64x64.Idx → EReal) (ix2 d q) := by
  obtain ⟨-, -, -, -, e20, e21, -⟩ := block_indices1 t
  show V c main_arg5 (((cfg1.win 2).blk t).view.emb (ix2 d q)) = V c main_arg5 (ix2 d q)
  refine congrArg (V c main_arg5) (funext fun a => Fin.ext ?_)
  match a with
  | ⟨0, _⟩ => show win1_2.index t (0 : Fin 2) * 64 + 1 * d.val = d.val; omega
  | ⟨1, _⟩ => show win1_2.index t (1 : Fin 2) * 64 + 1 * q.val = q.val; omega

/-- The second weight's block at any point is the whole matrix. -/
theorem iblk1_3_apply (c : Dev nD) (t : Fin cfg1.N) (d q : Fin 64) :
    iblk1 (F := Ideal) V c 3 t (ix2 d q) = (V c main_arg6 : S64x64.Idx → EReal) (ix2 d q) := by
  obtain ⟨-, -, -, -, -, -, e30, e31, -⟩ := block_indices1 t
  show V c main_arg6 (((cfg1.win 3).blk t).view.emb (ix2 d q)) = V c main_arg6 (ix2 d q)
  refine congrArg (V c main_arg6) (funext fun a => Fin.ext ?_)
  match a with
  | ⟨0, _⟩ => show win1_3.index t (0 : Fin 2) * 64 + 1 * d.val = d.val; omega
  | ⟨1, _⟩ => show win1_3.index t (1 : Fin 2) * 64 + 1 * q.val = q.val; omega

/-- The bias row's block at any point is the whole row. -/
theorem iblk1_4_apply (c : Dev nD) (t : Fin cfg1.N) (q : Fin 64) :
    iblk1 (F := Ideal) V c 4 t (ix2 0 q) = (V c main_v39 : S1x64.Idx → EReal) (ix2 0 q) := by
  obtain ⟨-, -, -, -, -, -, -, -, e40, e41, -⟩ := block_indices1 t
  show V c main_v39 (((cfg1.win 4).blk t).view.emb (ix2 0 q)) = V c main_v39 (ix2 0 q)
  refine congrArg (V c main_v39) (funext fun a => Fin.ext ?_)
  match a with
  | ⟨0, _⟩ => show win1_4.index t (0 : Fin 2) * 1 + 1 * 0 = 0; omega
  | ⟨1, _⟩ => show win1_4.index t (1 : Fin 2) * 64 + 1 * q.val = q.val; omega

/-- Entry `(p, q)` of the output block of point `t` sits at `(row, q)` of the output array. -/
theorem blk1_5_emb (t : Fin cfg1.N) (p : Fin 10000) (q : Fin 64) :
    ((cfg1.win 5).blk t).view.emb (ix2 p q) = (ix2 (row1 t p) q : S50000x64.Idx) := by
  obtain ⟨-, -, -, -, -, -, -, -, -, -, e50, e51⟩ := block_indices1 t
  refine funext fun a => Fin.ext ?_
  match a with
  | ⟨0, _⟩ => show win1_5.index t (0 : Fin 2) * 10000 + 1 * p.val = t.val * 10000 + p.val; omega
  | ⟨1, _⟩ => show win1_5.index t (1 : Fin 2) * 64 + 1 * q.val = q.val; omega

/-- What grid point `t` writes back is its block of the layer function of the arrays the region finds on entry. -/
theorem flushed1_eq (c : Dev nD) (t : Fin cfg1.N) :
    (dat1 (F := Ideal) V c).flushed 5 t = ((cfg1.win 5).blk t).view.read (Elt Ideal)
      (Cert.Sage.lin (V c main_v38) (V c main_v26) (V c main_arg5) (V c main_arg6)
        (fun q => (V c main_v39 : S1x64.Idx → EReal) (ix2 0 q))) := by
  show (cfg1.win 5).cut (grid1.coords t) ((dat1 V c).after 5 t) = _
  rw [after1_5]
  unfold out1_5
  rw [View.canon_unit_zero offsets_zero]
  simp only [View.ld_unit_zero (S := S10000x64) offsets_zero, View.ld_unit_zero (S := S64x64) offsets_zero,
    View.ld_unit_zero (S := S1x64) offsets_zero]
  funext j
  obtain ⟨p, q, rfl⟩ : ∃ (p : Fin 10000) (q : Fin 64), j = ix2 p q := ⟨j 0, j 1, eq_ix2 j⟩
  show k1_pay1 (iblk1 V c 0 t) (iblk1 V c 1 t) (iblk1 V c 2 t) (iblk1 V c 3 t) (iblk1 V c 4 t) (ix2 p q)
      = Cert.Sage.lin (V c main_v38) (V c main_v26) (V c main_arg5) (V c main_arg6)
          (fun q => (V c main_v39 : S1x64.Idx → EReal) (ix2 0 q)) (((cfg1.win 5).blk t).view.emb (ix2 p q))
  rw [blk1_5_emb, Cert.Sage.lin_apply, pay1_apply]
  unfold Cert.Sage.linAt
  simp only [iblk1_0_apply, iblk1_1_apply, iblk1_2_apply, iblk1_3_apply, iblk1_4_apply]

/-- An index of the output array lies in the block of point `t` iff each coordinate lies in the block's range. -/
theorem mem_blk1_5 (t : Fin cfg1.N) (i : S50000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v40).slice (win1_5.rect t)).set ↔ _
  rw [View.set_slice_whole, Rect.mem_set_unit]
  exact Iff.rfl

/-- Every index of the output array lies in the block of the point its row divided by 10000 names. -/
theorem cover1_5_rows (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  refine ⟨⟨(i 0).val / 10000, by show (i 0).val / 10000 < 5; omega⟩, flush1_5 _, ?_⟩
  rw [mem_blk1_5]
  obtain ⟨-, -, -, -, -, -, -, -, -, -, e50, e51⟩ := block_indices1 ⟨(i 0).val / 10000, by show (i 0).val / 10000 < 5; omega⟩
  have e50' : win1_5.index ⟨(i 0).val / 10000, by show (i 0).val / 10000 < 5; omega⟩ (0 : Fin 2) = (i 0).val / 10000 := e50
  intro a
  match a with
  | ⟨0, _⟩ =>
    show win1_5.index _ (0 : Fin 2) * 10000 ≤ (i 0).val ∧ (i 0).val < win1_5.index _ (0 : Fin 2) * 10000 + 10000
    omega
  | ⟨1, _⟩ =>
    show win1_5.index _ (1 : Fin 2) * 64 ≤ (i 1).val ∧ (i 1).val < win1_5.index _ (1 : Fin 2) * 64 + 64
    omega

/-- THE SECOND REGION'S OUTPUT ARRAY after its five points: the layer function (no positive part) of the arrays the
    region finds on entry. -/
theorem region1_value (c : Dev nD) :
    (Cert.KernelIdeal.Gen.dat1 (F := Ideal) V c).arrAt 5 cfg1.N
      = Cert.Sage.lin (V c main_v38) (V c main_v26) (V c main_arg5) (V c main_arg6) (fun q => V c main_v39 (ix2 0 q)) :=
  (dat1 (F := Ideal) V c).arrAt_eq_of_cover 5 _ (fun t _ => flushed1_eq V c t) cover1_5_rows

end Cert.KernelIdeal.RegionValue

end
-- ==== Proof.HostChain.lean ====
/-
  The host operations around the two regions, read back as functions.

  Both stretches of host operations compute the same thing from different operands: from the source indices, the
  destination indices and a per-node scale, the MEAN AGGREGATION of a feature array — a source index below zero is
  wrapped by the number of nodes, the rows of the feature array at the source indices are gathered, the gathered rows
  are summed into their destination rows, and every row of the sum is multiplied by that node's scale. The first
  stretch also computes the indices (the two rows of the edge list) and the scale (one over the larger of the
  in-degree and one, the in-degree being the segment sum of ones), and lays the first bias out as a row; the second
  stretch reuses them and lays out the second bias.
-/
import proofs.«177572_j377957122578_1_alg».proof.Proof.Gen.KernelIdeal.Launch
import Idealize.ShloMosaic.Lib.StableHlo.Run
import Idealize.ShloMosaic.PureOps.Ideal

noncomputable section

namespace Cert.KernelIdeal.HostChain

open Cert.KernelIdeal Cert.KernelIdeal.Gen
open Idealize.ShloMosaic Idealize.ShloMosaic.TcCoe Idealize.ShloMosaic.StableHlo Idealize.SL.Sem

/-- The source indices: row 0 of the edge list. -/
def src (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000

/-- The destination indices: row 1 of the edge list. -/
def dst (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- The in-degree of every node: ones summed into their destination entries. -/
def degree (d : (⟨S800000, .i32⟩ : BufTy).Contents (Elt Ideal)) : (⟨S50000, .f32⟩ : BufTy).Contents (Elt Ideal) :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 d)
    (broadcastInDim S800000 ![] bcast_S_S800000 (constant (F := Ideal) S_ .f32 0x3F800000#32))

/-- The per-node scale as a column: one over the larger of the in-degree and one. -/
def scale (d : (⟨S800000, .i32⟩ : BufTy).Contents (Elt Ideal)) : (⟨S50000x1, .f32⟩ : BufTy).Contents (Elt Ideal) :=
  broadcastInDim S50000x1 ![0] bcast_S50000_S50000x1_0
    (Host.divf (broadcastInDim S50000 ![] bcast_S_S50000 (constant (F := Ideal) S_ .f32 0x3F800000#32))
      (maximumf (degree d) (broadcastInDim S50000 ![] bcast_S_S50000 (constant (F := Ideal) S_ .f32 0x3F800000#32))))

/-- The rows of a feature array gathered at the wrapped source indices and summed into their destination rows. -/
def segSum (s d : (⟨S800000, .i32⟩ : BufTy).Contents (Elt Ideal)) (feat : (⟨S50000x64, .f32⟩ : BufTy).Contents (Elt Ideal)) :
    (⟨S50000x64, .f32⟩ : BufTy).Contents (Elt Ideal) :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 d)
    (Host.gather gather_S50000x64_S800000x1_S800000x64_1_0_n_n_0_1_164 feat
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- The mean aggregation from its three operands: the segment sum, every row multiplied by its node's scale. -/
def aggrOf (s d : (⟨S800000, .i32⟩ : BufTy).Contents (Elt Ideal)) (inv : (⟨S50000x1, .f32⟩ : BufTy).Contents (Elt Ideal))
    (feat : (⟨S50000x64, .f32⟩ : BufTy).Contents (Elt Ideal)) : (⟨S50000x64, .f32⟩ : BufTy).Contents (Elt Ideal) :=
  mulf (F := Ideal) (s := S50000x64) (φ := .f32) (segSum s d feat) (broadcastInDim S50000x64 ![0, 1] bcast_S50000x1_S50000x64_0_1 inv)

variable (W : Valuation τ sig (Elt Ideal))

/-! ## The first stretch -/

theorem first_src : StableHlo.after (hostOps0 (F := Ideal)) W (Proc.devRef .tc main_v1) = src (W (Proc.devRef .tc main_arg1)) := by
  after_results_simp; rfl

theorem first_dst : StableHlo.after (hostOps0 (F := Ideal)) W (Proc.devRef .tc main_v3) = dst (W (Proc.devRef .tc main_arg1)) := by
  after_results_simp; rfl

theorem first_scale : StableHlo.after (hostOps0 (F := Ideal)) W (Proc.devRef .tc main_v12) = scale (dst (W (Proc.devRef .tc main_arg1))) := by
  after_results_simp; rfl

theorem first_aggr : StableHlo.after (hostOps0 (F := Ideal)) W (Proc.devRef .tc main_v24)
    = aggrOf (src (W (Proc.devRef .tc main_arg1))) (dst (W (Proc.devRef .tc main_arg1))) (scale (dst (W (Proc.devRef .tc main_arg1))))
        (W (Proc.devRef .tc main_arg0)) := by
  after_results_simp; rfl

theorem first_bias : StableHlo.after (hostOps0 (F := Ideal)) W (Proc.devRef .tc main_v25)
    = shapeCast _ (W (Proc.devRef .tc main_arg4)) shapeCasts_S64_S1x64 := by
  after_results_simp; rfl

theorem first_arg0 : StableHlo.after (hostOps0 (F := Ideal)) W (Proc.devRef .tc main_arg0) = W (Proc.devRef .tc main_arg0) := by
  after_results_simp
theorem first_arg2 : StableHlo.after (hostOps0 (F := Ideal)) W (Proc.devRef .tc main_arg2) = W (Proc.devRef .tc main_arg2) := by
  after_results_simp
theorem first_arg3 : StableHlo.after (hostOps0 (F := Ideal)) W (Proc.devRef .tc main_arg3) = W (Proc.devRef .tc main_arg3) := by
  after_results_simp
theorem first_arg5 : StableHlo.after (hostOps0 (F := Ideal)) W (Proc.devRef .tc main_arg5) = W (Proc.devRef .tc main_arg5) := by
  after_results_simp
theorem first_arg6 : StableHlo.after (hostOps0 (F := Ideal)) W (Proc.devRef .tc main_arg6) = W (Proc.devRef .tc main_arg6) := by
  after_results_simp
theorem first_arg7 : StableHlo.after (hostOps0 (F := Ideal)) W (Proc.devRef .tc main_arg7) = W (Proc.devRef .tc main_arg7) := by
  after_results_simp

/-! ## The second stretch -/

theorem second_aggr : StableHlo.after (hostOps1 (F := Ideal)) W (Proc.devRef .tc main_v38)
    = aggrOf (W (Proc.devRef .tc main_v1)) (W (Proc.devRef .tc main_v3)) (W (Proc.devRef .tc main_v12)) (W (Proc.devRef .tc main_v26)) := by
  after_results_simp; rfl

theorem second_bias : StableHlo.after (hostOps1 (F := Ideal)) W (Proc.devRef .tc main_v39)
    = shapeCast _ (W (Proc.devRef .tc main_arg7)) shapeCasts_S64_S1x64 := by
  after_results_simp; rfl

theorem second_hidden : StableHlo.after (hostOps1 (F := Ideal)) W (Proc.devRef .tc main_v26) = W (Proc.devRef .tc main_v26) := by
  after_results_simp
theorem second_arg5 : StableHlo.after (hostOps1 (F := Ideal)) W (Proc.devRef .tc main_arg5) = W (Proc.devRef .tc main_arg5) := by
  after_results_simp
theorem second_arg6 : StableHlo.after (hostOps1 (F := Ideal)) W (Proc.devRef .tc main_arg6) = W (Proc.devRef .tc main_arg6) := by
  after_results_simp

end Cert.KernelIdeal.HostChain

end
-- ==== Proof.KernelValue.lean ====
/-
  The kernel program's result as the network of the specification.

  Reading the result buffer backwards through the program: the second region leaves in it one layer of the arrays it
  finds on entry; those are what the second stretch of host operations wrote — the mean aggregation of the hidden
  features, and the second bias laid out as a row — beside the hidden features themselves, which the first region
  left: one layer with its positive part of what the first stretch wrote, the mean aggregation of the input features
  and the first bias as a row. The indices and the scale computed by the first stretch pass through the first region
  untouched (it writes only its own output), so both aggregations are one function of the edge list.
-/
import proofs.«177572_j377957122578_1_alg».proof.Proof.Gen.KernelIdeal.Frame
import proofs.«177572_j377957122578_1_alg».proof.Proof.HostChain
import proofs.«177572_j377957122578_1_alg».proof.Proof.Spec
import Idealize.ShloMosaic.Lib.Pipeline.Value
import Idealize.ShloMosaic.Lib.ValueIdx

set_option maxRecDepth 16384

noncomputable section

namespace Cert.KernelIdeal.KernelValue

open Cert.KernelIdeal Cert.KernelIdeal.Gen Cert.KernelIdeal.HostChain
open Idealize.ShloMosaic Idealize.ShloMosaic.TcCoe Idealize.ShloMosaic.ValueIdx Idealize.SL.Sem

/-- A bias of 64 entries laid out as a row `[1, 64]` reads, at `(0, q)`, its entry `q`. -/
theorem bias_row_apply (x : (⟨S64, .f32⟩ : BufTy).Contents (Elt Ideal)) (q : Fin 64) :
    shapeCast S1x64 x shapeCasts_S64_S1x64 (ix2 0 q) = x (ix1 q) := by
  refine shapeCast_apply x shapeCasts_S64_S1x64 (ix2 0 q) (ix1 q) ?_
  rw [Shape.rowMajor_val_one, Shape.rowMajor_val_two]
  simp [ix1, ix2]

/-- The kernel program's mean aggregation, as a function of the edge list and a feature array. -/
def aggr (e : (⟨S2x800000, .i32⟩ : BufTy).Contents (Elt Ideal)) (feat : (⟨S50000x64, .f32⟩ : BufTy).Contents (Elt Ideal)) :
    (⟨S50000x64, .f32⟩ : BufTy).Contents (Elt Ideal) :=
  aggrOf (src e) (dst e) (scale (dst e)) feat

variable (m : (ℓ : Loc nD τ sig) → Buf (Elt Ideal) ℓ) (ρ : Dev nD → PrngReg)

/-- The hidden features: what the first region leaves in its output array. -/
theorem hidden_eq
    (hR0 : ∀ (V : (c : Dev nD) → (b : Ref sig .tc) → Buf (Elt Ideal) ((c : Thread nD τ).loc b)) (c : Dev nD),
      (dat0 (F := Ideal) V c).arrAt 5 cfg0.N
        = Cert.Sage.linRelu (V c main_v24) (V c main_arg0) (V c main_arg2) (V c main_arg3) (fun q => V c main_v25 (ix2 0 q)))
    (c : Dev nD) :
    W2 m ρ c (Proc.devRef .tc main_v26)
      = Cert.Sage.linRelu (aggr (m ((c.tc : Thread nD τ).loc main_arg1)) (m ((c.tc : Thread nD τ).loc main_arg0)))
          (m ((c.tc : Thread nD τ).loc main_arg0)) (m ((c.tc : Thread nD τ).loc main_arg2)) (m ((c.tc : Thread nD τ).loc main_arg3))
          (fun q => m ((c.tc : Thread nD τ).loc main_arg4) (ix1 q)) := by
  have h24 : V1 m ρ c main_v24 = aggr (m ((c.tc : Thread nD τ).loc main_arg1)) (m ((c.tc : Thread nD τ).loc main_arg0)) :=
    first_aggr (W0 m ρ c)
  have h0 : V1 m ρ c main_arg0 = m ((c.tc : Thread nD τ).loc main_arg0) := first_arg0 (W0 m ρ c)
  have h2 : V1 m ρ c main_arg2 = m ((c.tc : Thread nD τ).loc main_arg2) := first_arg2 (W0 m ρ c)
  have h3 : V1 m ρ c main_arg3 = m ((c.tc : Thread nD τ).loc main_arg3) := first_arg3 (W0 m ρ c)
  have h25 : V1 m ρ c main_v25 = shapeCast S1x64 (m ((c.tc : Thread nD τ).loc main_arg4)) shapeCasts_S64_S1x64 :=
    first_bias (W0 m ρ c)
  refine (W2_arr m ρ c 5).trans ?_
  rw [hR0 (V1 m ρ) c, h24, h0, h2, h3, h25]
  exact congrArg _ (funext fun q => bias_row_apply _ q)

/-- The result buffer at the last boundary is the network over the kernel program's aggregation. -/
theorem out_eq
    (hR0 : ∀ (V : (c : Dev nD) → (b : Ref sig .tc) → Buf (Elt Ideal) ((c : Thread nD τ).loc b)) (c : Dev nD),
      (dat0 (F := Ideal) V c).arrAt 5 cfg0.N
        = Cert.Sage.linRelu (V c main_v24) (V c main_arg0) (V c main_arg2) (V c main_arg3) (fun q => V c main_v25 (ix2 0 q)))
    (hR1 : ∀ (V : (c : Dev nD) → (b : Ref sig .tc) → Buf (Elt Ideal) ((c : Thread nD τ).loc b)) (c : Dev nD),
      (dat1 (F := Ideal) V c).arrAt 5 cfg1.N
        = Cert.Sage.lin (V c main_v38) (V c main_v26) (V c main_arg5) (V c main_arg6) (fun q => V c main_v39 (ix2 0 q)))
    (c : Dev nD) :
    W4 m ρ c (Proc.devRef .tc main_v40)
      = Cert.Sage.net (aggr (m ((c.tc : Thread nD τ).loc main_arg1)))
          (m ((c.tc : Thread nD τ).loc main_arg0)) (m ((c.tc : Thread nD τ).loc main_arg2)) (m ((c.tc : Thread nD τ).loc main_arg3))
          (fun q => m ((c.tc : Thread nD τ).loc main_arg4) (ix1 q))
          (m ((c.tc : Thread nD τ).loc main_arg5)) (m ((c.tc : Thread nD τ).loc main_arg6))
          (fun q => m ((c.tc : Thread nD τ).loc main_arg7) (ix1 q)) := by
  -- the operands of the second stretch, at the first region's exit: untouched by the region, so the first stretch's
  have e1 : W2 m ρ c (Proc.devRef .tc main_v1) = src (m ((c.tc : Thread nD τ).loc main_arg1)) :=
    (W2_of_ne m ρ c main_v1 (by decide)).trans (first_src (W0 m ρ c))
  have e3 : W2 m ρ c (Proc.devRef .tc main_v3) = dst (m ((c.tc : Thread nD τ).loc main_arg1)) :=
    (W2_of_ne m ρ c main_v3 (by decide)).trans (first_dst (W0 m ρ c))
  have e12 : W2 m ρ c (Proc.devRef .tc main_v12) = scale (dst (m ((c.tc : Thread nD τ).loc main_arg1))) :=
    (W2_of_ne m ρ c main_v12 (by decide)).trans (first_scale (W0 m ρ c))
  have e5 : W2 m ρ c (Proc.devRef .tc main_arg5) = m ((c.tc : Thread nD τ).loc main_arg5) :=
    (W2_of_ne m ρ c main_arg5 (by decide)).trans (first_arg5 (W0 m ρ c))
  have e6 : W2 m ρ c (Proc.devRef .tc main_arg6) = m ((c.tc : Thread nD τ).loc main_arg6) :=
    (W2_of_ne m ρ c main_arg6 (by decide)).trans (first_arg6 (W0 m ρ c))
  have e7 : W2 m ρ c (Proc.devRef .tc main_arg7) = m ((c.tc : Thread nD τ).loc main_arg7) :=
    (W2_of_ne m ρ c main_arg7 (by decide)).trans (first_arg7 (W0 m ρ c))
  have eH := hidden_eq m ρ hR0 c
  -- the arrays the second region finds on entry
  have h38 : V3 m ρ c main_v38 = aggr (m ((c.tc : Thread nD τ).loc main_arg1)) (W2 m ρ c (Proc.devRef .tc main_v26)) :=
    (second_aggr (W2 m ρ c)).trans (by rw [e1, e3, e12]; rfl)
  have h26 : V3 m ρ c main_v26 = W2 m ρ c (Proc.devRef .tc main_v26) := second_hidden (W2 m ρ c)
  have h5 : V3 m ρ c main_arg5 = m ((c.tc : Thread nD τ).loc main_arg5) := (second_arg5 (W2 m ρ c)).trans e5
  have h6 : V3 m ρ c main_arg6 = m ((c.tc : Thread nD τ).loc main_arg6) := (second_arg6 (W2 m ρ c)).trans e6
  have h39 : V3 m ρ c main_v39 = shapeCast S1x64 (m ((c.tc : Thread nD τ).loc main_arg7)) shapeCasts_S64_S1x64 :=
    (second_bias (W2 m ρ c)).trans (by rw [e7])
  refine (W4_arr m ρ c 5).trans ?_
  rw [hR1 (V3 m ρ) c, h38, h26, h5, h6, h39, eH]
  unfold Cert.Sage.net
  exact congrArg _ (funext fun q => bias_row_apply _ q)

end Cert.KernelIdeal.KernelValue

end
-- ==== Proof.LibHostRead.lean ====
/-
  Reads of host operations at an index, at the exact extended-real values, for rank-2 arrays: a `dot_general`
  that contracts the second axis of its left operand with the first axis of its right operand is, at entry
  `(p, q)`, the sum over the contracted coordinate of the products; a bias of length `b` broadcast first to a row
  `[1, b]` and then down `a` rows reads its own entry `q`; a scalar broadcast to any shape reads the scalar; a
  slice of `w` columns starting at column `o` reads column `o + q`; and the word of the float one is the real one.
-/
import Idealize.ShloMosaic.PureOps.Ideal.Laws
import Idealize.ShloMosaic.Lib.Pipeline.Value
import Idealize.ShloMosaic.Lib.ValueIdx

noncomputable section

open scoped BigOperators

namespace Cert.HostRead

open Idealize.ShloMosaic Idealize.ShloMosaic.ValueIdx

/-- A host product contracting axis 1 of the left operand with axis 0 of the right one, read at `(p, q)`. -/
theorem dotGeneral_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    Host.dotGeneral D prec x w (ix2 p q) = ∑ d : Fin k, x (ix2 p d) * w (ix2 d q) := by
  obtain ⟨lc, rc, ln, rn, lb, rb, wf⟩ := D
  dsimp only at hlc hrc hln hrn hlb hrb
  subst hlc hrc hln hrn hlb hrb
  refine (Ideal.dotGeneral_apply _ prec .single x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- A bias broadcast to a row and then down the rows reads its own entry. -/
theorem bias_rows_apply {α : Type} {a b : ℕ} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (p : Fin a) (q : Fin b) :
    broadcastInDim ⟨2, ![a, b]⟩ ![0, 1] h2 (broadcastInDim ⟨2, ![1, b]⟩ ![1] h1 x) (ix2 p q) = x (ix1 q) := by
  unfold broadcastInDim
  refine congrArg x (funext fun ax => Fin.ext ?_)
  match ax with
  | ⟨0, _⟩ =>
    by_cases hb : b = 1
    · subst hb; simp [ix1, ix2]
    · simp [ix1, ix2, hb]; rfl

/-- A scalar broadcast to any shape reads the scalar. -/
theorem scalar_bcast_apply {α : Type} {t : Shape} (h : (⟨0, ![]⟩ : Shape).BroadcastsInDim t ![])
    (x : (⟨0, ![]⟩ : Shape).Idx → α) (j : t.Idx) : broadcastInDim t ![] h x j = x ix0 := by
  unfold broadcastInDim
  exact congrArg x (funext fun ax => ax.elim0)

/-- A slice of `w` columns from column `o` on, all rows, reads column `o + q`. -/
theorem cols_apply {α : Type} {a n w : ℕ} (o : ℕ) (h : (⟨2, ![a, n]⟩ : Shape).Slices ![0, o] ⟨2, ![a, w]⟩)
    (x : (⟨2, ![a, n]⟩ : Shape).Idx → α) (p : Fin a) (q : Fin w) (ho : o + q.val < n) :
    extractStridedSlice ⟨2, ![a, w]⟩ ![0, o] x h (ix2 p q) = x (ix2 p ⟨o + q.val, ho⟩) := by
  refine extractStridedSlice_apply ![0, o] x h (ix2 p q) (ix2 p ⟨o + q.val, ho⟩) fun ax => ?_
  match ax with
  | ⟨0, _⟩ => show p.val = 0 + p.val; omega
  | ⟨1, _⟩ => rfl

/-- The word of the float one denotes the real one. -/
theorem ofBits_one_f32 : Ideal.ofBits .f32 0x3F800000#32 = 1 := by
  simp [Ideal.ofBits, Ideal.ieee, -EReal.coe_mul]
  norm_num

end Cert.HostRead

end
-- ==== Proof.RefLayer.lean ====
/-
  One layer of the reference, entry by entry.

  A layer of the reference is two matrix products (the aggregated features against the first weight, the node's own
  features against the second), added, plus the bias broadcast down the rows; the first layer is followed by the
  larger of the entry and the float zero. At entry (p, q) a product contracting the feature axis is the sum over the
  64 features of the products of the entries, the broadcast bias reads its entry q, and the broadcast zero reads
  the zero: the layer is the specification's `lin` (resp. `linRelu`) of the same operands.
-/
import proofs.«177572_j377957122578_1_alg».proof.Proof.Gen.ReferenceIdeal.Read
import proofs.«177572_j377957122578_1_alg».proof.Proof.Spec
import proofs.«177572_j377957122578_1_alg».proof.Proof.LibHostRead
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

set_option maxHeartbeats 400000 in
/-- Two products contracting the feature axis, added, plus the bias broadcast down the rows, is one layer of the
    specification. -/
theorem layer_eq (A X : FVec Ideal S50000x64 .f32) (Wl Wr : FVec Ideal S64x64 .f32) (b : FVec Ideal S64 .f32) :
    addf (addf (Host.dotGeneral dot_S50000x64_S64x64_S50000x64_1_0_0_1_n_n none A Wl)
               (Host.dotGeneral dot_S50000x64_S64x64_S50000x64_1_0_0_1_n_n none X Wr))
         (broadcastInDim S50000x64 ![0, 1] bcast_S1x64_S50000x64_0_1 (broadcastInDim S1x64 ![1] bcast_S64_S1x64_1 b))
      = Cert.Sage.lin A X Wl Wr (fun q => b (ix1 q)) := by
  funext i
  obtain ⟨p, q, rfl⟩ : ∃ (p : Fin 50000) (q : Fin 64), i = ix2 p q := ⟨i 0, i 1, eq_ix2 i⟩
  refine (addf_apply _ _ _).trans ?_
  refine (congrArg₂ (· + ·) ((addf_apply _ _ _).trans (congrArg₂ (· + ·)
    (Cert.HostRead.dotGeneral_ix2_apply dot_S50000x64_S64x64_S50000x64_1_0_0_1_n_n rfl rfl rfl rfl rfl rfl none A Wl p q)
    (Cert.HostRead.dotGeneral_ix2_apply dot_S50000x64_S64x64_S50000x64_1_0_0_1_n_n rfl rfl rfl rfl rfl rfl none X Wr p q)))
    (Cert.HostRead.bias_rows_apply bcast_S64_S1x64_1 bcast_S1x64_S50000x64_0_1 b p q)).trans ?_
  exact (Cert.Sage.lin_apply A X Wl Wr (fun q => b (ix1 q)) p q).symm

set_option maxHeartbeats 400000 in
/-- The same followed by the larger of the entry and the float zero broadcast to the whole array. -/
theorem layer_relu_eq (A X : FVec Ideal S50000x64 .f32) (Wl Wr : FVec Ideal S64x64 .f32) (b : FVec Ideal S64 .f32) :
    maximumf
        (addf (addf (Host.dotGeneral dot_S50000x64_S64x64_S50000x64_1_0_0_1_n_n none A Wl)
                    (Host.dotGeneral dot_S50000x64_S64x64_S50000x64_1_0_0_1_n_n none X Wr))
              (broadcastInDim S50000x64 ![0, 1] bcast_S1x64_S50000x64_0_1 (broadcastInDim S1x64 ![1] bcast_S64_S1x64_1 b)))
        (broadcastInDim S50000x64 ![] bcast_S_S50000x64 (constant (F := Ideal) S_ .f32 0x00000000#32))
      = Cert.Sage.linRelu A X Wl Wr (fun q => b (ix1 q)) := by
  refine (congrArg (fun t => maximumf t _) (layer_eq A X Wl Wr b)).trans ?_
  funext i
  obtain ⟨p, q, rfl⟩ : ∃ (p : Fin 50000) (q : Fin 64), i = ix2 p q := ⟨i 0, i 1, eq_ix2 i⟩
  refine (maximumf_apply _ _ _).trans ?_
  refine (congrArg₂ max (Cert.Sage.lin_apply A X Wl Wr (fun q => b (ix1 q)) p q)
    ((Cert.HostRead.scalar_bcast_apply bcast_S_S50000x64 _ (ix2 p q)).trans (constant_apply _ _))).trans ?_
  exact (Cert.Sage.linRelu_apply A X Wl Wr (fun q => b (ix1 q)) p q).symm

end Cert.ReferenceIdeal.RefValue

end
-- ==== Proof.RefValue.lean ====
/-
  The reference's result is the specification's two-layer network over the reference's own mean aggregation.

  The reference aggregates a feature array over the edge list as the segment sum of the rows gathered at the edges'
  sources, added into the edges' targets, divided entry by entry by the larger of the target's degree and one,
  broadcast along the features. It does so twice, first on the input features and then on the hidden features, each time
  recomputing the same index arrays from the edge list under other names: the second aggregation is the first one's
  function applied to the hidden array. Each layer is two products, their sum and the broadcast bias
  (`layer_eq`, `layer_relu_eq`), so the whole result is `net` of that aggregation.
-/
import proofs.«177572_j377957122578_1_alg».proof.Proof.RefLayer

noncomputable section

open scoped BigOperators

namespace Cert.ReferenceIdeal.RefValue

open Cert.ReferenceIdeal Cert.ReferenceIdeal.Gen Idealize.ShloMosaic Idealize.ShloMosaic.ValueIdx

/-- The reference's mean aggregation of a feature array over the edge list: the segment sum of the gathered rows
    divided by the broadcast of max(degree, 1). -/
def aggr (x1 : (⟨S2x800000, .i32⟩ : BufTy).Contents (Elt Ideal)) (feat : (⟨S50000x64, .f32⟩ : BufTy).Contents (Elt Ideal)) :
    (⟨S50000x64, .f32⟩ : BufTy).Contents (Elt Ideal) :=
  Host.divf (F := Ideal) (φ := .f32)
    (Host.scatterAdd (F := Ideal) (φ := .f32) scatter_S50000x64_S800000x1_S800000x64_1_0_0_1 (Read.val_main_v11 (F := Ideal))
      (Read.val_main_v12 (F := Ideal) x1)
      (Host.gather gather_S50000x64_S800000x1_S800000x64_1_0_n_n_0_1_164 feat (Read.val_main_v9 (F := Ideal) x1)))
    (Read.val_main_v21 (F := Ideal) x1)

/-- The first aggregation is `aggr` of the input features. -/
theorem v22_eq (x0 : (⟨S50000x64, .f32⟩ : BufTy).Contents (Elt Ideal)) (x1 : (⟨S2x800000, .i32⟩ : BufTy).Contents (Elt Ideal)) :
    Read.val_main_v22 (F := Ideal) x0 x1 = aggr x1 x0 := by
  unfold Read.val_main_v22 Read.val_main_v13 Read.val_main_v10 aggr
  rfl

/-- The second layer's zero array is the first layer's. -/
theorem v37_eq : Read.val_main_v37 (F := Ideal) = Read.val_main_v11 (F := Ideal) := by
  unfold Read.val_main_v37 Read.val_main_cst_6 Read.val_main_v11 Read.val_main_cst
  rfl

/-- The second layer's target indices are the first layer's. -/
theorem v38_eq (x1 : (⟨S2x800000, .i32⟩ : BufTy).Contents (Elt Ideal)) :
    Read.val_main_v38 (F := Ideal) x1 = Read.val_main_v12 (F := Ideal) x1 := by
  unfold Read.val_main_v38 Read.val_main_v12
  rfl

/-- The second layer's source indices are the first layer's. -/
theorem v35_eq (x1 : (⟨S2x800000, .i32⟩ : BufTy).Contents (Elt Ideal)) :
    Read.val_main_v35 (F := Ideal) x1 = Read.val_main_v9 (F := Ideal) x1 := by
  unfold Read.val_main_v35 Read.val_main_v34 Read.val_main_v31 Read.val_main_v33 Read.val_main_v30 Read.val_main_v32
    Read.val_main_c_4 Read.val_main_c_5
    Read.val_main_v9 Read.val_main_v8 Read.val_main_v5 Read.val_main_v7 Read.val_main_v4 Read.val_main_v6
    Read.val_main_c Read.val_main_c_0
  rfl

/-- The second layer's broadcast degrees are the first layer's. -/
theorem v47_eq (x1 : (⟨S2x800000, .i32⟩ : BufTy).Contents (Elt Ideal)) :
    Read.val_main_v47 (F := Ideal) x1 = Read.val_main_v21 (F := Ideal) x1 := by
  unfold Read.val_main_v47 Read.val_main_v46 Read.val_main_v45 Read.val_main_v43 Read.val_main_v44 Read.val_main_v42
    Read.val_main_v41 Read.val_main_v40 Read.val_main_cst_7 Read.val_main_cst_8 Read.val_main_cst_9
    Read.val_main_v21 Read.val_main_v20 Read.val_main_v19 Read.val_main_v17 Read.val_main_v18 Read.val_main_v16
    Read.val_main_v15 Read.val_main_v14 Read.val_main_cst_1 Read.val_main_cst_2 Read.val_main_cst_3
  rfl

/-- The hidden features are the first layer with its positive part. -/
theorem v29_eq (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 : (⟨S64, .f32⟩ : BufTy).Contents (Elt Ideal)) :
    Read.val_main_v29 (F := Ideal) x0 x1 x2 x3 x4
      = Cert.Sage.linRelu (aggr x1 x0) x0 x2 x3 (fun q => x4 (ix1 q)) := by
  unfold Read.val_main_v29 Read.val_main_v28 Read.val_main_v27 Read.val_main_v26 Read.val_main_v25 Read.val_main_v24
    Read.val_main_v23 Read.val_main_call0_v0 Read.val_main_call0_cst
  rw [v22_eq x0 x1]
  exact layer_relu_eq (aggr x1 x0) x0 x2 x3 x4

/-- The second aggregation is `aggr` of the hidden features. -/
theorem v48_eq (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 : (⟨S64, .f32⟩ : BufTy).Contents (Elt Ideal)) :
    Read.val_main_v48 (F := Ideal) x0 x1 x2 x3 x4 = aggr x1 (Read.val_main_v29 (F := Ideal) x0 x1 x2 x3 x4) := by
  unfold Read.val_main_v48 Read.val_main_v39 Read.val_main_v36 aggr
  rw [v37_eq, v38_eq x1, v35_eq x1, v47_eq x1]

/-- The reference's result is the two-layer network over its own aggregation. -/
theorem ref_value (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal)) :
    Read.val_main_v54 (F := Ideal) x0 x1 x2 x3 x4 x5 x6 x7
      = Cert.Sage.net (aggr x1) x0 x2 x3 (fun q => x4 (ix1 q)) x5 x6 (fun q => x7 (ix1 q)) := by
  unfold Cert.Sage.net
  unfold Read.val_main_v54 Read.val_main_v53 Read.val_main_v52 Read.val_main_v51 Read.val_main_v50 Read.val_main_v49
  rw [v48_eq x0 x1 x2 x3 x4, v29_eq x0 x1 x2 x3 x4]
  exact layer_eq _ _ x5 x6 x7

end Cert.ReferenceIdeal.RefValue

end
-- ==== Proof.LibMeanLaw.lean ====
/-
  A GENERAL LEMMA FILE: the masked segment-mean law on the extended reals (it imports only the ideal float operations).
  `div_eq_mul_recip`: a quotient by ANY nonzero extended real, an infinite one included, is the product with the
  divisor's reciprocal; `max_one_ne_zero`; `one_f32`: the pattern 0x3F800000 is one; and `scale_eq_masked_div`:
  `s * select (0 < g) (1 / max g 1) 0 = select (0 < g) (s / max g 1) 0` for every `s` and `g`.

  The one law that joins the two programs, on the extended reals.

  A segment mean is a segment sum `s` divided by the segment's size `g`, with the convention that an empty segment
  has mean `0`.  One program scales the sum by a factor computed beforehand — the reciprocal of `max g 1` where
  `0 < g`, and `0` elsewhere —, the other divides the sum by `max g 1` where `0 < g` and answers `0` elsewhere.

  The two agree for EVERY extended real `s` and `g`, the infinities included, so no finiteness is used:
  * `max g 1` is at least `1`, hence never `0`, so both quotients are products with the inverse `(max g 1)⁻¹`
    (an infinite divisor has inverse `0`), and `s * (1 * d⁻¹) = s * d⁻¹`;
  * where `0 < g` fails, the scale is `0` and `s * 0 = 0` on all of the extended reals.
-/
import Idealize.ShloMosaic.PureOps.Ideal

noncomputable section

namespace Cert.MeanLaw

open Idealize.ShloMosaic

/-- The pattern `0x3F800000` is the number one. -/
theorem one_f32 : Ideal.ofBits .f32 0x3F800000#32 = (1 : EReal) := by
  simp [Ideal.ofBits, Ideal.ieee]
  have h : (8388608 : ℝ) * ((2 : ℝ) ^ 23)⁻¹ = 1 := by norm_num
  exact_mod_cast h

/-- A quotient by a nonzero extended real is the product with the divisor's reciprocal. -/
theorem div_eq_mul_recip (s d : EReal) (hd : d ≠ 0) : Ideal.div s d = s * Ideal.div 1 d := by
  unfold Ideal.div
  rw [if_neg hd, if_neg hd, one_mul]

/-- The larger of anything and one is not zero. -/
theorem max_one_ne_zero (g : EReal) : max g 1 ≠ 0 := by
  have h : (0 : EReal) < max g 1 := lt_of_lt_of_le zero_lt_one (le_max_right g 1)
  exact ne_of_gt h

/-- THE LAW: scaling the sum by the masked reciprocal is dividing it under the same mask. -/
theorem scale_eq_masked_div (s g : EReal) :
    s * Scalar.select (Ideal.cmp .ogt g 0) (Ideal.div 1 (max g 1)) 0
      = Scalar.select (Ideal.cmp .ogt g 0) (Ideal.div s (max g 1)) 0 := by
  unfold Scalar.select
  by_cases h : Ideal.cmp .ogt g 0 = 1
  · rw [if_pos h, if_pos h, div_eq_mul_recip s _ (max_one_ne_zero g)]
  · rw [if_neg h, if_neg h, mul_zero]

end Cert.MeanLaw

end
-- ==== Proof.ScaleLaw.lean ====
/-
  The law that joins the two programs.

  One program multiplies every row of the segment sum by that node's scale, one over the larger of the in-degree and
  one; the other divides every row by the larger of the in-degree and one. The larger of anything and one is never
  zero, and a quotient by a nonzero extended real is the product with the divisor's reciprocal, so the two arrays are
  equal entry by entry, for every extended-real segment sum and in-degree: no finiteness is used.
-/
import proofs.«177572_j377957122578_1_alg».proof.Proof.Gen.KernelIdeal
import proofs.«177572_j377957122578_1_alg».proof.Proof.LibMeanLaw
import Idealize.ShloMosaic.Lib.ValueIdx

noncomputable section

namespace Cert.KernelIdeal.ScaleLaw

open Cert.KernelIdeal Cert.KernelIdeal.Gen
open Idealize.ShloMosaic

/-- Scaling the rows of `S` by the broadcast reciprocal of `max g 1` is dividing them by the broadcast `max g 1`. -/
theorem scale_mul_eq_div (S : (⟨S50000x64, .f32⟩ : BufTy).Contents (Elt Ideal)) (g : (⟨S50000, .f32⟩ : BufTy).Contents (Elt Ideal)) :
    mulf S (broadcastInDim S50000x64 ![0, 1] bcast_S50000x1_S50000x64_0_1
        (broadcastInDim S50000x1 ![0] bcast_S50000_S50000x1_0
          (Host.divf (broadcastInDim S50000 ![] bcast_S_S50000 (constant (F := Ideal) S_ .f32 0x3F800000#32))
            (maximumf g (broadcastInDim S50000 ![] bcast_S_S50000 (constant (F := Ideal) S_ .f32 0x3F800000#32))))))
      = Host.divf S (broadcastInDim S50000x64 ![0, 1] bcast_S50000x1_S50000x64_0_1
          (broadcastInDim S50000x1 ![0] bcast_S50000_S50000x1_0
            (maximumf g (broadcastInDim S50000 ![] bcast_S_S50000 (constant (F := Ideal) S_ .f32 0x3F800000#32))))) := by
  funext i
  simp only [mulf, Host.divf, maximumf, broadcastInDim, constant, Ideal.mulf_def, Ideal.hostDivf_def,
    Ideal.maximumf_def, Ideal.ofBits_def, Cert.MeanLaw.one_f32]
  exact (Cert.MeanLaw.div_eq_mul_recip _ _ (Cert.MeanLaw.max_one_ne_zero _)).symm

end Cert.KernelIdeal.ScaleLaw

end
-- ==== Proof.Bridge.lean ====
/-
  The two programs' mean aggregations are one function.

  Both gather the rows of a feature array at the wrapped source indices and sum them into their destination rows; the
  kernel program then multiplies every row by one over the larger of the node's in-degree and one, the reference
  divides every row by the larger of the in-degree and one. The segment sum and the in-degree are the same terms on
  both sides, and the scale law equates the product with the quotient.
-/
import proofs.«177572_j377957122578_1_alg».proof.Proof.KernelValue
import proofs.«177572_j377957122578_1_alg».proof.Proof.ScaleLaw
import proofs.«177572_j377957122578_1_alg».proof.Proof.RefValue

noncomputable section

namespace Cert.Bridge

open Idealize.ShloMosaic

/-- The kernel program's aggregation of a feature array over an edge list is the reference's. -/
theorem aggr_eq (e : (⟨Cert.KernelIdeal.S2x800000, .i32⟩ : BufTy).Contents (Elt Ideal))
    (feat : (⟨Cert.KernelIdeal.S50000x64, .f32⟩ : BufTy).Contents (Elt Ideal)) :
    Cert.KernelIdeal.KernelValue.aggr e feat = Cert.ReferenceIdeal.RefValue.aggr e feat := by
  unfold Cert.KernelIdeal.KernelValue.aggr Cert.KernelIdeal.HostChain.aggrOf Cert.KernelIdeal.HostChain.scale
  refine (Cert.KernelIdeal.ScaleLaw.scale_mul_eq_div _ _).trans ?_
  rfl

end Cert.Bridge

end
-- ==== Proof.lean ====
/-
  Two layers of mean-aggregation message passing on a graph of 50000 nodes, 64 features a node and 800000 edges: the
  kernel program against its reference, over the extended reals.

  Each layer aggregates the features along the edges (the rows at the source indices gathered, summed into their
  destination rows, and averaged over the in-degree, an isolated node counting as degree one) and then combines,
  for every node, the aggregated row against one weight matrix, the node's own row against a second one, and a bias;
  the first layer keeps the positive part. The kernel program does the aggregation with host operations and the
  combination in a region of five blocks of 10000 rows, once per layer; the reference does everything with host
  operations.

  What is proved here. The three frames: the kernel programs' are the generated frame over the four segments (host
  operations, region, host operations, region), the reference's is its generated run with the result dropped.
  `preserves` asks nothing: the idealization rewrote no operation. `algebraic`: both programs end with the network
  `Cert.Sage.net` of the argument arrays —
    * the kernel program, because its run ends with the result buffer at the last boundary's contents
      (ValueRun), each region leaves one layer of the arrays it finds (RegionValue0, RegionValue1: the block
      of rows a point writes is that layer's rows, and the five blocks cover the array), and the host operations
      before each region write the aggregation and the bias row (HostChain, KernelValue);
    * the reference, because its generated run read one operation at a time is the same two layers (RefLayer,
      RefValue);
    * and the two aggregations are one function: a product with the reciprocal of `max degree 1` is the quotient
      by it, since `max degree 1` is never zero (ScaleLaw, Bridge). No finiteness of the inputs is used.
-/
import proofs.«177572_j377957122578_1_alg».proof.Defs
import proofs.«177572_j377957122578_1_alg».proof.Proof.Gen.Kernel
import proofs.«177572_j377957122578_1_alg».proof.Proof.Gen.Kernel.Skeleton
import proofs.«177572_j377957122578_1_alg».proof.Proof.Gen.Kernel.Launch
import proofs.«177572_j377957122578_1_alg».proof.Proof.Gen.Kernel.Points
import proofs.«177572_j377957122578_1_alg».proof.Proof.Gen.Kernel.Frame
import proofs.«177572_j377957122578_1_alg».proof.Proof.Gen.KernelIdeal
import proofs.«177572_j377957122578_1_alg».proof.Proof.Gen.KernelIdeal.Skeleton
import proofs.«177572_j377957122578_1_alg».proof.Proof.Gen.KernelIdeal.Launch
import proofs.«177572_j377957122578_1_alg».proof.Proof.Gen.KernelIdeal.Points
import proofs.«177572_j377957122578_1_alg».proof.Proof.Gen.KernelIdeal.Frame
import proofs.«177572_j377957122578_1_alg».proof.Proof.Gen.ReferenceIdeal
import proofs.«177572_j377957122578_1_alg».proof.Proof.Gen.ReferenceIdeal.Run
import proofs.«177572_j377957122578_1_alg».proof.Proof.Gen.ReferenceIdeal.Read
import proofs.«177572_j377957122578_1_alg».proof.Proof.Gen.Pre_finite_inputs
import proofs.«177572_j377957122578_1_alg».proof.Proof.ValueRun
import proofs.«177572_j377957122578_1_alg».proof.Proof.RegionValue0
import proofs.«177572_j377957122578_1_alg».proof.Proof.RegionValue1
import proofs.«177572_j377957122578_1_alg».proof.Proof.KernelValue
import proofs.«177572_j377957122578_1_alg».proof.Proof.RefValue
import proofs.«177572_j377957122578_1_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the two-layer network of the argument arrays over one aggregation. -/
theorem algebraic : Cert.algebraic_KernelIdeal_ReferenceIdeal := by
  intro m ρ m' ρ' _ hagree
  refine ⟨fun c => Cert.Sage.net
      (Cert.KernelIdeal.KernelValue.aggr (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (fun q => m ((c.tc : Thread Cert.KernelIdeal.nD Cert.KernelIdeal.τ).loc Cert.KernelIdeal.main_arg4) (ix1 q))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (fun q => m ((c.tc : Thread Cert.KernelIdeal.nD Cert.KernelIdeal.τ).loc Cert.KernelIdeal.main_arg7) (ix1 q)), ?_, ?_⟩
  · exact (θ_run Cert.KernelIdeal.defs _ _).mono
      (fun _ h c => ⟨(h c).1.trans (Cert.KernelIdeal.KernelValue.out_eq m ρ
          (fun V c => Cert.KernelIdeal.RegionValue.region0_value V c)
          (fun V c => Cert.KernelIdeal.RegionValue.region1_value V c) c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v54_eq, Cert.ReferenceIdeal.RefValue.ref_value, h0, h1, h2, h3, h4, h5, h6, h7]
    exact congrArg (fun a => Cert.Sage.net a _ _ _ _ _ _ _) (funext fun feat => (Cert.Bridge.aggr_eq _ feat).symm)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
